-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512x64 : Shape := ⟨3, ![2048, 512, 64]⟩
abbrev S2048 : Shape := ⟨1, ![2048]⟩
abbrev S64x16 : Shape := ⟨2, ![64, 16]⟩
abbrev S16 : Shape := ⟨1, ![16]⟩
abbrev S16x12 : Shape := ⟨2, ![16, 12]⟩
abbrev S12 : Shape := ⟨1, ![12]⟩
abbrev S12x32 : Shape := ⟨2, ![12, 32]⟩
abbrev S32 : Shape := ⟨1, ![32]⟩
abbrev S_ : Shape := ⟨0, ![]⟩

class Facts : Prop where
  bcast_S_S2048x512x64 : S_.BroadcastsInDim S2048x512x64 (![] : Fin 0 → Fin S2048x512x64.rank)
  reducesTo_S2048x512x64_S_d0_1_2 : S2048x512x64.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x12 : S_.BroadcastsInDim S16x12 (![] : Fin 0 → Fin S16x12.rank)
  reducesTo_S16x12_S_d0_1 : S16x12.ReducesTo [0, 1] S_
  bcast_S_S12 : S_.BroadcastsInDim S12 (![] : Fin 0 → Fin S12.rank)
  reducesTo_S12_S_d0 : S12.ReducesTo [0] S_
  bcast_S_S12x32 : S_.BroadcastsInDim S12x32 (![] : Fin 0 → Fin S12x32.rank)
  reducesTo_S12x32_S_d0_1 : S12x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S12 .f32) (main_arg6 : FVec F S12x32 .f32) (main_arg7 : FVec F S32 .f32) (main_v13 : IVec S_ 1) (main_v16 : IVec S16x12 1) : IVec S_ 1 :=
  let main_c_5 : IVec S_ 1 := constantI S_ 1 1#1
  let main_v17 : IVec S_ 1 := (fun x v => Host.reduce IntOp.andi x v reducesTo_S16x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12x32 .f32 := Host.absf main_arg6
  let main_cst_8 : FVec F S_ .f32 := constant S_ .f32 0x7F800000#32
  let main_v25 : FVec F S12x32 .f32 := broadcastInDim S12x32 ![] bcast_S_S12x32 main_cst_8
  let main_v26 : IVec S12x32 1 := cmpf .olt main_v24 main_v25
  let main_c_9 : IVec S_ 1 := constantI S_ 1 1#1
  let main_v27 : IVec S_ 1 := (fun x v => Host.reduce IntOp.andi x v reducesTo_S12x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S2048x512x64 .f32) (main_arg1 : IVec S2048 32) (main_arg2 : FVec F S64x16 .f32) (main_arg3 : FVec F S16 .f32) (main_arg4 : FVec F S16x12 .f32) (main_arg5 : FVec F S12 .f32) (main_arg6 : FVec F S12x32 .f32) (main_arg7 : FVec F S32 .f32) : IVec S_ 1 :=
  let main_v0 : FVec F S2048x512x64 .f32 := Host.absf main_arg0
  let main_cst : FVec F S_ .f32 := constant S_ .f32 0x7F800000#32
  let main_v1 : FVec F S2048x512x64 .f32 := broadcastInDim S2048x512x64 ![] bcast_S_S2048x512x64 main_cst
  let main_v2 : IVec S2048x512x64 1 := cmpf .olt main_v0 main_v1
  let main_c : IVec S_ 1 := constantI S_ 1 1#1
  let main_v3 : IVec S_ 1 := (fun x v => Host.reduce IntOp.andi x v reducesTo_S2048x512x64_S_d0_1_2 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x12 .f32 := Host.absf main_arg4
  let main_cst_4 : FVec F S_ .f32 := constant S_ .f32 0x7F800000#32
  let main_v15 : FVec F S16x12 .f32 := broadcastInDim S16x12 ![] bcast_S_S16x12 main_cst_4
  let main_v16 : IVec S16x12 1 := cmpf .olt main_v14 main_v15
  fn_part1 (F := F) main_arg5 main_arg6 main_arg7 main_v13 main_v16
-- ==== Kernel.lean ====
abbrev S2048x512x64 : Shape := ⟨3, ![2048, 512, 64]⟩
abbrev S2048 : Shape := ⟨1, ![2048]⟩
abbrev S64x16 : Shape := ⟨2, ![64, 16]⟩
abbrev S16 : Shape := ⟨1, ![16]⟩
abbrev S16x12 : Shape := ⟨2, ![16, 12]⟩
abbrev S12 : Shape := ⟨1, ![12]⟩
abbrev S12x32 : Shape := ⟨2, ![12, 32]⟩
abbrev S32 : Shape := ⟨1, ![32]⟩
abbrev S2048x1 : Shape := ⟨2, ![2048, 1]⟩
abbrev S2048x32 : Shape := ⟨2, ![2048, 32]⟩
abbrev S128x64x64 : Shape := ⟨3, ![128, 64, 64]⟩
abbrev S128x1 : Shape := ⟨2, ![128, 1]⟩
abbrev S128x32 : Shape := ⟨2, ![128, 32]⟩
abbrev S128x12 : Shape := ⟨2, ![128, 12]⟩
abbrev S8192x64 : Shape := ⟨2, ![8192, 64]⟩
abbrev S8192x16 : Shape := ⟨2, ![8192, 16]⟩
abbrev S1x16 : Shape := ⟨2, ![1, 16]⟩
abbrev S8192x12 : Shape := ⟨2, ![8192, 12]⟩
abbrev S1x12 : Shape := ⟨2, ![1, 12]⟩
abbrev S128x64x12 : Shape := ⟨3, ![128, 64, 12]⟩
abbrev S128x64 : Shape := ⟨2, ![128, 64]⟩
abbrev S128x64x1 : Shape := ⟨3, ![128, 64, 1]⟩
abbrev S1x32 : Shape := ⟨2, ![1, 32]⟩

abbrev nBuf : Space → Nat
  | .hbm => 10
  | .vmem => 13
  | .smem => 0
  | _ => 0

abbrev bufTy : (tb : Table) → Fin (tcTables nBuf tb) → BufTy
  | .hbm, ⟨0, _⟩ => ⟨S2048x512x64, .f32⟩
  | .hbm, ⟨1, _⟩ => ⟨S2048, .i32⟩
  | .hbm, ⟨2, _⟩ => ⟨S64x16, .f32⟩
  | .hbm, ⟨3, _⟩ => ⟨S16, .f32⟩
  | .hbm, ⟨4, _⟩ => ⟨S16x12, .f32⟩
  | .hbm, ⟨5, _⟩ => ⟨S12, .f32⟩
  | .hbm, ⟨6, _⟩ => ⟨S12x32, .f32⟩
  | .hbm, ⟨7, _⟩ => ⟨S32, .f32⟩
  | .hbm, ⟨8, _⟩ => ⟨S2048x1, .i32⟩
  | .hbm, ⟨9, _⟩ => ⟨S2048x32, .f32⟩
  | .local _ .vmem, ⟨0, _⟩ => ⟨S128x64x64, .f32⟩
  | .local _ .vmem, ⟨1, _⟩ => ⟨S128x64x64, .f32⟩
  | .local _ .vmem, ⟨2, _⟩ => ⟨S128x1, .i32⟩
  | .local _ .vmem, ⟨3, _⟩ => ⟨S128x1, .i32⟩
  | .local _ .vmem, ⟨4, _⟩ => ⟨S64x16, .f32⟩
  | .local _ .vmem, ⟨5, _⟩ => ⟨S16, .f32⟩
  | .local _ .vmem, ⟨6, _⟩ => ⟨S16x12, .f32⟩
  | .local _ .vmem, ⟨7, _⟩ => ⟨S12, .f32⟩
  | .local _ .vmem, ⟨8, _⟩ => ⟨S12x32, .f32⟩
  | .local _ .vmem, ⟨9, _⟩ => ⟨S32, .f32⟩
  | .local _ .vmem, ⟨10, _⟩ => ⟨S128x32, .f32⟩
  | .local _ .vmem, ⟨11, _⟩ => ⟨S128x32, .f32⟩
  | .local _ .vmem, ⟨12, _⟩ => ⟨S128x12, .f32⟩
  | _, _ => ⟨S2048x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_18 : BitVec 32 := 0#32
  let v45 : BitVec 1 := Scalar.cmpi .ne v44 c0_i32_18
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2048_S2048x1 : S2048.ShapeCasts S2048x1
  inb_S128x12_S128x12_0_0 : ∀ a, (![0, 0] : Fin 2 → Nat) a + S128x12.size a ≤ S128x12.size a
  h_S128x12 : 0 < S128x12.numel
  shapeCasts_S128x12_S128x12 : S128x12.ShapeCasts S128x12
  inb_S128x64x64_S128x64x64_0_0_0 : ∀ a, (![0, 0, 0] : Fin 3 → Nat) a + S128x64x64.size a ≤ S128x64x64.size a
  h_S128x64x64 : 0 < S128x64x64.numel
  shapeCasts_S128x64x64_S8192x64 : S128x64x64.ShapeCasts S8192x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S8192x16 : S1x16.Broadcasts S8192x16
  inb_S16x12_S16x12_0_0 : ∀ a, (![0, 0] : Fin 2 → Nat) a + S16x12.size a ≤ S16x12.size a
  h_S16x12 : 0 < S16x12.numel
  inb_S12_S12_0 : ∀ a, (![0] : Fin 1 → Nat) a + S12.size a ≤ S12.size a
  h_S12 : 0 < S12.numel
  shapeCasts_S12_S1x12 : S12.ShapeCasts S1x12
  broadcasts_S1x12_S8192x12 : S1x12.Broadcasts S8192x12
  shapeCasts_S8192x12_S128x64x12 : S8192x12.ShapeCasts S128x64x12
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x64_d1_w32 : S128x64.Iotas .tc 32 [1]
  broadcasts_S128x1_S128x64 : S128x1.Broadcasts S128x64
  natLt_1_32 : 1 < 32
  shapeCasts_S128x64_S128x64x1 : S128x64.ShapeCasts S128x64x1
  broadcasts_S128x64x1_S128x64x12 : S128x64x1.Broadcasts S128x64x12
  reduces_S128x64x12_S128x12 : S128x64x12.Reduces [1] S128x12
  inb_S12x32_S12x32_0_0 : ∀ a, (![0, 0] : Fin 2 → Nat) a + S12x32.size a ≤ S12x32.size a
  h_S12x32 : 0 < S12x32.numel
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  dot_S8192x64_S64x16_S8192x16_1_0_0_1_n_n_wf : DotDims.WF S8192x64 S64x16 S8192x16 [1] [0] [0] [1] [] []
  dot_S8192x16_S16x12_S8192x12_1_0_0_1_n_n_wf : DotDims.WF S8192x16 S16x12 S8192x12 [1] [0] [0] [1] [] []
  dot_S128x12_S12x32_S128x32_1_0_0_1_n_n_wf : DotDims.WF S128x12 S12x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S2048x512x64.size a
  hwx0_0 : ∀ i : grid0.Coords, EltTy.bits .f32 = 32 ∨ (Rect.block (s := S2048x512x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S2048x1.size a
  hwx0_1 : ∀ i : grid0.Coords, EltTy.bits .i32 = 32 ∨ (Rect.block (s := S2048x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x12.size a ≤ S16x12.size a
  hwx0_4 : ∀ i : grid0.Coords, EltTy.bits .f32 = 32 ∨ (Rect.block (s := S16x12) S16x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12.size a ≤ S12.size a
  hwx0_5 : ∀ i : grid0.Coords, EltTy.bits .f32 = 32 ∨ (Rect.block (s := S12) S12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x32.size a ≤ S12x32.size a
  hwx0_6 : ∀ i : grid0.Coords, EltTy.bits .f32 = 32 ∨ (Rect.block (s := S12x32) S12x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S2048x32.size a
  hwx0_8 : ∀ i : grid0.Coords, EltTy.bits .f32 = 32 ∨ (Rect.block (s := S2048x32) S128x32.size (cc0_transform_8 i) (hinb0_8 i)).WholeWords (EltTy.packing .f32)

variable [Facts₀]

def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x12_S8192x12_1_0_0_1_n_n : DotDims S8192x16 S16x12 S8192x12 where
  lhsContracting := [1]
  rhsContracting := [0]
  lhsNonContracting := [0]
  rhsNonContracting := [1]
  lhsBatch := []
  rhsBatch := []
  wf := dot_S8192x16_S16x12_S8192x12_1_0_0_1_n_n_wf
def dot_S128x12_S12x32_S128x32_1_0_0_1_n_n : DotDims S128x12 S12x32 S128x32 where
  lhsContracting := [1]
  rhsContracting := [0]
  lhsNonContracting := [0]
  rhsNonContracting := [1]
  lhsBatch := []
  rhsBatch := []
  wf := dot_S128x12_S12x32_S128x32_1_0_0_1_n_n_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S128x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2048x512x64 : Shape := ⟨3, ![2048, 512, 64]⟩
abbrev S2048 : Shape := ⟨1, ![2048]⟩
abbrev S64x16 : Shape := ⟨2, ![64, 16]⟩
abbrev S16 : Shape := ⟨1, ![16]⟩
abbrev S16x12 : Shape := ⟨2, ![16, 12]⟩
abbrev S12 : Shape := ⟨1, ![12]⟩
abbrev S12x32 : Shape := ⟨2, ![12, 32]⟩
abbrev S32 : Shape := ⟨1, ![32]⟩
abbrev S2048x512x16 : Shape := ⟨3, ![2048, 512, 16]⟩
abbrev S1x1x16 : Shape := ⟨3, ![1, 1, 16]⟩
abbrev S_ : Shape := ⟨0, ![]⟩
abbrev S2048x512x12 : Shape := ⟨3, ![2048, 512, 12]⟩
abbrev S1x1x12 : Shape := ⟨3, ![1, 1, 12]⟩
abbrev S512 : Shape := ⟨1, ![512]⟩
abbrev S1x512 : Shape := ⟨2, ![1, 512]⟩
abbrev S2048x1 : Shape := ⟨2, ![2048, 1]⟩
abbrev S2048x512 : Shape := ⟨2, ![2048, 512]⟩
abbrev S2048x512x1 : Shape := ⟨3, ![2048, 512, 1]⟩
abbrev S2048x12 : Shape := ⟨2, ![2048, 12]⟩
abbrev S2048x32 : Shape := ⟨2, ![2048, 32]⟩
abbrev S1x32 : Shape := ⟨2, ![1, 32]⟩

abbrev nBuf : Space → Nat
  | .hbm => 37
  | .vmem => 0
  | .smem => 0
  | _ => 0

abbrev bufTy : (tb : Table) → Fin (tcTables nBuf tb) → BufTy
  | .hbm, ⟨0, _⟩ => ⟨S2048x512x64, .f32⟩
  | .hbm, ⟨1, _⟩ => ⟨S2048, .i32⟩
  | .hbm, ⟨2, _⟩ => ⟨S64x16, .f32⟩
  | .hbm, ⟨3, _⟩ => ⟨S16, .f32⟩
  | .hbm, ⟨4, _⟩ => ⟨S16x12, .f32⟩
  | .hbm, ⟨5, _⟩ => ⟨S12, .f32⟩
  | .hbm, ⟨6, _⟩ => ⟨S12x32, .f32⟩
  | .hbm, ⟨7, _⟩ => ⟨S32, .f32⟩
  | .hbm, ⟨8, _⟩ => ⟨S2048x512x16, .f32⟩
  | .hbm, ⟨9, _⟩ => ⟨S1x1x16, .f32⟩
  | .hbm, ⟨10, _⟩ => ⟨S2048x512x16, .f32⟩
  | .hbm, ⟨11, _⟩ => ⟨S2048x512x16, .f32⟩
  | .hbm, ⟨12, _⟩ => ⟨S_, .f32⟩
  | .hbm, ⟨13, _⟩ => ⟨S2048x512x16, .f32⟩
  | .hbm, ⟨14, _⟩ => ⟨S2048x512x16, .f32⟩
  | .hbm, ⟨15, _⟩ => ⟨S2048x512x12, .f32⟩
  | .hbm, ⟨16, _⟩ => ⟨S1x1x12, .f32⟩
  | .hbm, ⟨17, _⟩ => ⟨S2048x512x12, .f32⟩
  | .hbm, ⟨18, _⟩ => ⟨S2048x512x12, .f32⟩
  | .hbm, ⟨19, _⟩ => ⟨S512, .i32⟩
  | .hbm, ⟨20, _⟩ => ⟨S1x512, .i32⟩
  | .hbm, ⟨21, _⟩ => ⟨S2048x1, .i32⟩
  | .hbm, ⟨22, _⟩ => ⟨S2048x512, .i32⟩
  | .hbm, ⟨23, _⟩ => ⟨S2048x512, .i32⟩
  | .hbm, ⟨24, _⟩ => ⟨S2048x512, .i1⟩
  | .hbm, ⟨25, _⟩ => ⟨S2048x512x1, .i1⟩
  | .hbm, ⟨26, _⟩ => ⟨S_, .f32⟩
  | .hbm, ⟨27, _⟩ => ⟨S_, .f32⟩
  | .hbm, ⟨28, _⟩ => ⟨S2048x512x12, .i1⟩
  | .hbm, ⟨29, _⟩ => ⟨S2048x512x12, .f32⟩
  | .hbm, ⟨30, _⟩ => ⟨S2048x512x12, .f32⟩
  | .hbm, ⟨31, _⟩ => ⟨S_, .f32⟩
  | .hbm, ⟨32, _⟩ => ⟨S2048x12, .f32⟩
  | .hbm, ⟨33, _⟩ => ⟨S2048x32, .f32⟩
  | .hbm, ⟨34, _⟩ => ⟨S1x32, .f32⟩
  | .hbm, ⟨35, _⟩ => ⟨S2048x32, .f32⟩
  | .hbm, ⟨36, _⟩ => ⟨S2048x32, .f32⟩
  | _, _ => ⟨S2048x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S2048x512x16_0_1_2 : S1x1x16.BroadcastsInDim S2048x512x16 (![0, 1, 2] : Fin 3 → Fin S2048x512x16.rank)
  bcast_S_S2048x512x16 : S_.BroadcastsInDim S2048x512x16 (![] : Fin 0 → Fin S2048x512x16.rank)
  bcast_S12_S1x1x12_2 : S12.BroadcastsInDim S1x1x12 (![2] : Fin 1 → Fin S1x1x12.rank)
  bcast_S1x1x12_S2048x512x12_0_1_2 : S1x1x12.BroadcastsInDim S2048x512x12 (![0, 1, 2] : Fin 3 → Fin S2048x512x12.rank)
  bcast_S512_S1x512_1 : S512.BroadcastsInDim S1x512 (![1] : Fin 1 → Fin S1x512.rank)
  bcast_S2048_S2048x1_0 : S2048.BroadcastsInDim S2048x1 (![0] : Fin 1 → Fin S2048x1.rank)
  bcast_S1x512_S2048x512_0_1 : S1x512.BroadcastsInDim S2048x512 (![0, 1] : Fin 2 → Fin S2048x512.rank)
  bcast_S2048x1_S2048x512_0_1 : S2048x1.BroadcastsInDim S2048x512 (![0, 1] : Fin 2 → Fin S2048x512.rank)
  bcast_S2048x512_S2048x512x1_0_1 : S2048x512.BroadcastsInDim S2048x512x1 (![0, 1] : Fin 2 → Fin S2048x512x1.rank)
  bcast_S2048x512x1_S2048x512x12_0_1_2 : S2048x512x1.BroadcastsInDim S2048x512x12 (![0, 1, 2] : Fin 3 → Fin S2048x512x12.rank)
  bcast_S_S2048x512x12 : S_.BroadcastsInDim S2048x512x12 (![] : Fin 0 → Fin S2048x512x12.rank)
  reducesTo_S2048x512x12_S2048x12_d1 : S2048x512x12.ReducesTo [1] S2048x12
  h_S_ : 0 < S_.numel
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  dot_S2048x512x64_S64x16_S2048x512x16_2_0_01_1_n_n_wf : DotDims.WF S2048x512x64 S64x16 S2048x512x16 [2] [0] [0, 1] [1] [] []
  dot_S2048x512x16_S16x12_S2048x512x12_2_0_01_1_n_n_wf : DotDims.WF S2048x512x16 S16x12 S2048x512x12 [2] [0] [0, 1] [1] [] []
  dot_S2048x12_S12x32_S2048x32_1_0_0_1_n_n_wf : DotDims.WF S2048x12 S12x32 S2048x32 [1] [0] [0] [1] [] []

variable [Facts₀]

def dot_S2048x512x64_S64x16_S2048x512x16_2_0_01_1_n_n : DotDims S2048x512x64 S64x16 S2048x512x16 where
  lhsContracting := [2]
  rhsContracting := [0]
  lhsNonContracting := [0, 1]
  rhsNonContracting := [1]
  lhsBatch := []
  rhsBatch := []
  wf := dot_S2048x512x64_S64x16_S2048x512x16_2_0_01_1_n_n_wf
def dot_S2048x512x16_S16x12_S2048x512x12_2_0_01_1_n_n : DotDims S2048x512x16 S16x12 S2048x512x12 where
  lhsContracting := [2]
  rhsContracting := [0]
  lhsNonContracting := [0, 1]
  rhsNonContracting := [1]
  lhsBatch := []
  rhsBatch := []
  wf := dot_S2048x512x16_S16x12_S2048x512x12_2_0_01_1_n_n_wf
def dot_S2048x12_S12x32_S2048x32_1_0_0_1_n_n : DotDims S2048x12 S12x32 S2048x32 where
  lhsContracting := [1]
  rhsContracting := [0]
  lhsNonContracting := [0]
  rhsNonContracting := [1]
  lhsBatch := []
  rhsBatch := []
  wf := dot_S2048x12_S12x32_S2048x32_1_0_0_1_n_n_wf

class Facts : Prop extends Facts₀ where

variable [Facts]
-- ==== Proof.Spec.lean ====
/-
  The function both programs compute, index by index, on the extended reals.

  A batch of 2048 sets, each of 512 positions with 64 features, goes through two small dense layers position by
  position, the positions beyond a set's own size are dropped, the rest are summed, and a last dense layer is
  applied to the sum.  For a batch row `r`, a position `p` and the weights of the three layers:

    hid1 r p k = max (∑ f, X[r,p,f] · W1[f,k] + b1[k]) 0
    hid2 r p j = ∑ k, hid1 r p k · W2[k,j] + b2[j]
    kept r p j = hid2 r p j  if p < sizes[r] (signed),  0 otherwise
    pooled r j = ∑ p, kept r p j
    out r n    = ∑ j, pooled r j · W3[j,n] + b3[n]

  The sum over the 512 positions is also written over the naturals below 512, since one side accumulates it in
  eight consecutive runs of 64 positions: a sum over `range (a + b)` splits into the sums of its two stretches.
-/
import Mathlib
import Idealize.ShloMosaic.PureOps.Ideal
import Idealize.ShloMosaic.Lib.ValueIdx

noncomputable section

namespace Cert.SetPool

open Idealize.ShloMosaic Idealize.ShloMosaic.ValueIdx

/-- The eight argument arrays, by their literal shapes. -/
structure Args where
  X  : FVec Ideal ⟨3, ![2048, 512, 64]⟩ .f32
  sz : IVec ⟨1, ![2048]⟩ 32
  W1 : FVec Ideal ⟨2, ![64, 16]⟩ .f32
  b1 : FVec Ideal ⟨1, ![16]⟩ .f32
  W2 : FVec Ideal ⟨2, ![16, 12]⟩ .f32
  b2 : FVec Ideal ⟨1, ![12]⟩ .f32
  W3 : FVec Ideal ⟨2, ![12, 32]⟩ .f32
  b3 : FVec Ideal ⟨1, ![32]⟩ .f32

variable (A : Args)

/-- The first layer with its rectifier, at batch row `r`, position `p`, unit `k`. -/
def hid1 (r : Fin 2048) (p : Fin 512) (k : Fin 16) : EReal :=
  max ((∑ f : Fin 64, A.X (ix3 r p f) * A.W1 (ix2 f k)) + A.b1 (ix1 k)) 0

/-- The second layer, at batch row `r`, position `p`, unit `j`. -/
def hid2 (r : Fin 2048) (p : Fin 512) (j : Fin 12) : EReal :=
  (∑ k : Fin 16, hid1 A r p k * A.W2 (ix2 k j)) + A.b2 (ix1 j)

/-- Position `p` belongs to set `r`: the signed comparison of the position with the set's size says so. -/
def live (r : Fin 2048) (p : Fin 512) : Prop := IntOp.cmpi .slt (BitVec.ofNat 32 p.val) (A.sz (ix1 r)) = 1#1

instance (r : Fin 2048) (p : Fin 512) : Decidable (live A r p) := by unfold live; infer_instance

/-- The second layer's value where the position belongs to the set, zero elsewhere. -/
def kept (r : Fin 2048) (p : Fin 512) (j : Fin 12) : EReal := if live A r p then hid2 A r p j else 0

/-- The same over the naturals: zero from 512 on. -/
def keptN (r : Fin 2048) (j : Fin 12) (x : ℕ) : EReal := if h : x < 512 then kept A r ⟨x, h⟩ j else 0

theorem keptN_of_lt (r : Fin 2048) (j : Fin 12) (x : ℕ) (h : x < 512) : keptN A r j x = kept A r ⟨x, h⟩ j := dif_pos h

/-- The sum over a set's positions. -/
def pooled (r : Fin 2048) (j : Fin 12) : EReal := ∑ p : Fin 512, kept A r p j

/-- The sum over a set's positions, over the naturals below 512. -/
theorem pooled_eq_range (r : Fin 2048) (j : Fin 12) : pooled A r j = ∑ x ∈ Finset.range 512, keptN A r j x := by
  unfold pooled
  rw [← Fin.sum_univ_eq_sum_range (fun x => keptN A r j x) 512]
  exact Finset.sum_congr rfl fun p _ => (keptN_of_lt A r j p.val p.isLt).symm

/-- The last layer applied to the pooled values: the result at batch row `r`, output unit `n`. -/
def out (r : Fin 2048) (n : Fin 32) : EReal := (∑ j : Fin 12, pooled A r j * A.W3 (ix2 j n)) + A.b3 (ix1 n)

/-- The whole result array. -/
def G : FVec Ideal ⟨2, ![2048, 32]⟩ .f32 := fun i => out A (i 0) (i 1)

theorem G_ix2 (r : Fin 2048) (n : Fin 32) : G A (ix2 r n) = out A r n := rfl

end Cert.SetPool

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.Blocks.lean ====
/-
  Each window's block at a grid point, read against the whole arrays.

  The grid has 16 × 8 points; point `t` is batch tile `t / 8` and chunk `t % 8`.  The input's block there is rows
  `128 (t / 8) + rr` and positions `64 (t % 8) + q` of the input; the sizes' block is rows `128 (t / 8) + rr` of the sizes
  (a column, made from the vector of sizes by a reshape before the launch); the six weight and bias windows hold
  their whole arrays at every point.
-/
import proofs.«138510_j56221121905193_1_alg».proof.Proof.Gen.KernelIdeal.Value
import proofs.«138510_j56221121905193_1_alg».proof.Proof.Spec
import proofs.«138510_j56221121905193_1_alg».proof.Proof.LibColumn
import proofs.«138510_j56221121905193_1_alg».proof.Proof.LibRowSum
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

theorem lt128 (t : Fin cfg0.N) : t.val < 128 := lt_of_lt_of_eq t.isLt N_0

/-- The batch row of the whole array that row `rr` of the block at point `t` is. -/
def gRow (t : Fin cfg0.N) (rr : Fin 128) : Fin 2048 :=
  ⟨128 * (t.val / 8) + rr.val, by have := lt128 t; have := rr.isLt; omega⟩

/-- The position of its set that position `q` of the block at point `t` is. -/
def gPos (t : Fin cfg0.N) (q : Fin 64) : Fin 512 :=
  ⟨64 * (t.val % 8) + q.val, by have := q.isLt; omega⟩

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)

theorem idx1 : ∀ t : Fin cfg0.N, win0_1.index t (0 : Fin 2) = t.val / 8 ∧ win0_1.index t (1 : Fin 2) = 0 :=
  (by decide +kernel : ∀ t : Fin grid0.N, _)

/-- The input's block at point `t`. -/
theorem blk0 (c : Dev nD) (t : Fin cfg0.N) (rr : Fin 128) (q : Fin 64) (f : Fin 64) :
    (iblk m c 0 t : Vec Ideal S128x64x64 .f32) (ix3 rr q f)
      = m ((c : Thread nD τ).loc main_arg0) (ix3 (gRow t rr) (gPos t q) f) := by
  obtain ⟨h0, h1, h2⟩ := idx0 t
  unfold iblk
  rw [View.read_apply]
  show V m c main_arg0 _ = _
  rw [V_main_arg0]
  refine congrArg _ (funext fun a => Fin.ext ?_)
  match a with
  | ⟨0, _⟩ => show win0_0.index t 0 * 128 + 1 * rr.val = 128 * (t.val / 8) + rr.val; rw [h0]; omega
  | ⟨1, _⟩ => show win0_0.index t 1 * 64 + 1 * q.val = 64 * (t.val % 8) + q.val; rw [h1]; omega
  | ⟨2, _⟩ => show win0_0.index t 2 * 64 + 1 * f.val = f.val; rw [h2]; omega

/-- The column of sizes the region finds is the vector of sizes, reshaped by the one operation before the launch. -/
theorem V_sizes (c : Dev nD) :
    (V m c main_v0 : S2048x1.Idx → BitVec 32)
      = shapeCast S2048x1 (m ((c : Thread nD τ).loc main_arg1)) shapeCasts_S2048_S2048x1 := by
  dsimp only [Gen.V, Gen.hostOps0]; after_results; rfl

/-- The sizes' block at point `t`. -/
theorem blk1 (c : Dev nD) (t : Fin cfg0.N) (rr : Fin 128) :
    (iblk m c 1 t : Vec Ideal S128x1 .i32) (ix2 rr (0 : Fin 1))
      = m ((c : Thread nD τ).loc main_arg1) (ix1 (gRow t rr)) := by
  obtain ⟨h0, h1⟩ := idx1 t
  unfold iblk
  rw [View.read_apply]
  show V m c main_v0 _ = _
  rw [V_sizes]
  refine (congrArg _ (idx2_ext _ (gRow t rr) (0 : Fin 1) ?_ ?_)).trans (shapeCast_a_a1_apply _ _ _ _)
  · show win0_1.index t 0 * 128 + 1 * rr.val = 128 * (t.val / 8) + rr.val; rw [h0]; omega
  · show win0_1.index t 1 * 1 + 1 * 0 = 0; rw [h1]

theorem idx2 : ∀ t : Fin cfg0.N, win0_2.index t (0 : Fin 2) = 0 ∧ win0_2.index t (1 : Fin 2) = 0 :=
  (by decide +kernel : ∀ t : Fin grid0.N, _)

/-- Window 2's block is the whole array at every point. -/
theorem blk2 (c : Dev nD) (t : Fin cfg0.N) (f : Fin 64) (k : Fin 16) :
    (iblk m c 2 t : Vec Ideal S64x16 .f32) (ix2 f k) = m ((c : Thread nD τ).loc main_arg2) (ix2 f k) := by
  obtain ⟨h0, h1⟩ := idx2 t
  unfold iblk
  rw [View.read_apply]
  show V m c main_arg2 _ = _
  rw [V_main_arg2]
  refine congrArg _ (funext fun a => Fin.ext ?_)
  match a with
  | ⟨0, _⟩ => show win0_2.index t 0 * 64 + 1 * f.val = f.val; rw [h0]; omega
  | ⟨1, _⟩ => show win0_2.index t 1 * 16 + 1 * k.val = k.val; rw [h1]; omega

theorem idx3 : ∀ t : Fin cfg0.N, win0_3.index t (0 : Fin 1) = 0 :=
  (by decide +kernel : ∀ t : Fin grid0.N, _)

/-- Window 3's block is the whole array at every point. -/
theorem blk3 (c : Dev nD) (t : Fin cfg0.N) (k : Fin 16) :
    (iblk m c 3 t : Vec Ideal S16 .f32) (ix1 k) = m ((c : Thread nD τ).loc main_arg3) (ix1 k) := by
  have h0 := idx3 t
  unfold iblk
  rw [View.read_apply]
  show V m c main_arg3 _ = _
  rw [V_main_arg3]
  refine congrArg _ (funext fun a => Fin.ext ?_)
  match a with
  | ⟨0, _⟩ => show win0_3.index t 0 * 16 + 1 * k.val = k.val; rw [h0]; omega

theorem idx4 : ∀ t : Fin cfg0.N, win0_4.index t (0 : Fin 2) = 0 ∧ win0_4.index t (1 : Fin 2) = 0 :=
  (by decide +kernel : ∀ t : Fin grid0.N, _)

/-- Window 4's block is the whole array at every point. -/
theorem blk4 (c : Dev nD) (t : Fin cfg0.N) (k : Fin 16) (j : Fin 12) :
    (iblk m c 4 t : Vec Ideal S16x12 .f32) (ix2 k j) = m ((c : Thread nD τ).loc main_arg4) (ix2 k j) := by
  obtain ⟨h0, h1⟩ := idx4 t
  unfold iblk
  rw [View.read_apply]
  show V m c main_arg4 _ = _
  rw [V_main_arg4]
  refine congrArg _ (funext fun a => Fin.ext ?_)
  match a with
  | ⟨0, _⟩ => show win0_4.index t 0 * 16 + 1 * k.val = k.val; rw [h0]; omega
  | ⟨1, _⟩ => show win0_4.index t 1 * 12 + 1 * j.val = j.val; rw [h1]; omega

theorem idx5 : ∀ t : Fin cfg0.N, win0_5.index t (0 : Fin 1) = 0 :=
  (by decide +kernel : ∀ t : Fin grid0.N, _)

/-- Window 5's block is the whole array at every point. -/
theorem blk5 (c : Dev nD) (t : Fin cfg0.N) (j : Fin 12) :
    (iblk m c 5 t : Vec Ideal S12 .f32) (ix1 j) = m ((c : Thread nD τ).loc main_arg5) (ix1 j) := by
  have h0 := idx5 t
  unfold iblk
  rw [View.read_apply]
  show V m c main_arg5 _ = _
  rw [V_main_arg5]
  refine congrArg _ (funext fun a => Fin.ext ?_)
  match a with
  | ⟨0, _⟩ => show win0_5.index t 0 * 12 + 1 * j.val = j.val; rw [h0]; omega

theorem idx6 : ∀ t : Fin cfg0.N, win0_6.index t (0 : Fin 2) = 0 ∧ win0_6.index t (1 : Fin 2) = 0 :=
  (by decide +kernel : ∀ t : Fin grid0.N, _)

/-- Window 6's block is the whole array at every point. -/
theorem blk6 (c : Dev nD) (t : Fin cfg0.N) (j : Fin 12) (n : Fin 32) :
    (iblk m c 6 t : Vec Ideal S12x32 .f32) (ix2 j n) = m ((c : Thread nD τ).loc main_arg6) (ix2 j n) := by
  obtain ⟨h0, h1⟩ := idx6 t
  unfold iblk
  rw [View.read_apply]
  show V m c main_arg6 _ = _
  rw [V_main_arg6]
  refine congrArg _ (funext fun a => Fin.ext ?_)
  match a with
  | ⟨0, _⟩ => show win0_6.index t 0 * 12 + 1 * j.val = j.val; rw [h0]; omega
  | ⟨1, _⟩ => show win0_6.index t 1 * 32 + 1 * n.val = n.val; rw [h1]; omega

theorem idx7 : ∀ t : Fin cfg0.N, win0_7.index t (0 : Fin 1) = 0 :=
  (by decide +kernel : ∀ t : Fin grid0.N, _)

/-- Window 7's block is the whole array at every point. -/
theorem blk7 (c : Dev nD) (t : Fin cfg0.N) (n : Fin 32) :
    (iblk m c 7 t : Vec Ideal S32 .f32) (ix1 n) = m ((c : Thread nD τ).loc main_arg7) (ix1 n) := by
  have h0 := idx7 t
  unfold iblk
  rw [View.read_apply]
  show V m c main_arg7 _ = _
  rw [V_main_arg7]
  refine congrArg _ (funext fun a => Fin.ext ?_)
  match a with
  | ⟨0, _⟩ => show win0_7.index t 0 * 32 + 1 * n.val = n.val; rw [h0]; omega

/-- The result window's block index, and the chunk coordinate, at point `t`. -/
theorem idx8 : ∀ t : Fin cfg0.N, win0_8.index t (0 : Fin 2) = t.val / 8 ∧ win0_8.index t (1 : Fin 2) = 0 :=
  (by decide +kernel : ∀ t : Fin grid0.N, _)

theorem chunk_coord : ∀ t : Fin cfg0.N, ((grid0.coords t) 1).val = t.val % 8 :=
  (by decide +kernel : ∀ t : Fin grid0.N, _)

end Cert.KernelIdeal.Blocks

end
-- ==== Proof.Pieces.lean ====
/-
  What the kernel body leaves behind at one grid point, as pure functions of what it loaded.

  The body reads the current block of positions and the weights, adds the block's masked contribution to the
  running sums it keeps between points (after first clearing them at the first block of a set), and at the last
  block of a set applies the final layer to the running sums.  Each of its stores covers its whole buffer, so what a
  buffer holds afterwards is the value of the last store into it; a load of the running sums after a store into them
  reads that store's value back.
    first block of a set   : sums := zeros + contribution
    an inner block         : sums := previous sums + contribution
    last block of a set    : sums := previous sums + contribution;  result block := last layer of those sums
-/
import proofs.«138510_j56221121905193_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- An inner block of a set: the running sums become the previous ones plus this block's contribution. -/
theorem sout_B (c : Dev nD) (i : grid0.Coords) (arg2 : Memref sig .tc .vmem S128x64x64 .f32) (harg2 : arg2.IsWhole) (arg3 : Memref sig .tc .vmem S128x1 .i32) (harg3 : arg3.IsWhole) (arg4 : Memref sig .tc .vmem S64x16 .f32) (harg4 : arg4.IsWhole) (arg5 : Memref sig .tc .vmem S16 .f32) (harg5 : arg5.IsWhole) (arg6 : Memref sig .tc .vmem S16x12 .f32) (harg6 : arg6.IsWhole) (arg7 : Memref sig .tc .vmem S12 .f32) (harg7 : arg7.IsWhole) (arg8 : Memref sig .tc .vmem S12x32 .f32) (harg8 : arg8.IsWhole) (arg9 : Memref sig .tc .vmem S32 .f32) (harg9 : arg9.IsWhole) (arg10 : Memref sig .tc .vmem S128x32 .f32) (harg10 : arg10.IsWhole) (arg11 : Memref sig .tc .vmem S128x12 .f32) (harg11 : arg11.IsWhole) (hc0 : ¬cond0_0 i) (hc1 : ¬cond0_1 i)
    (x0 : Vec F S128x64x64 .f32) (x1 : Vec F S128x1 .i32) (x2 : Vec F S64x16 .f32) (x3 : Vec F S16 .f32) (x4 : Vec F S16x12 .f32) (x5 : Vec F S12 .f32) (x6 : Vec F S12x32 .f32) (x7 : Vec F S32 .f32) (xs0 : Vec F S128x12 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 xs0 (k0_pay4 i x0 x2 x3 x4 x5 x1) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S128x64x64) hz3, View.ld_unit_zero (S := S128x1) hz2, View.ld_unit_zero (S := S64x16) hz2, View.ld_unit_zero (S := S16) hz1, View.ld_unit_zero (S := S16x12) hz2, View.ld_unit_zero (S := S12) hz1, View.ld_unit_zero (S := S12x32) hz2, View.ld_unit_zero (S := S32) hz1, View.ld_unit_zero (S := S128x12) hz2]

/-- The last block of a set: the running sums, as at an inner block. -/
theorem sout_C (c : Dev nD) (i : grid0.Coords) (arg2 : Memref sig .tc .vmem S128x64x64 .f32) (harg2 : arg2.IsWhole) (arg3 : Memref sig .tc .vmem S128x1 .i32) (harg3 : arg3.IsWhole) (arg4 : Memref sig .tc .vmem S64x16 .f32) (harg4 : arg4.IsWhole) (arg5 : Memref sig .tc .vmem S16 .f32) (harg5 : arg5.IsWhole) (arg6 : Memref sig .tc .vmem S16x12 .f32) (harg6 : arg6.IsWhole) (arg7 : Memref sig .tc .vmem S12 .f32) (harg7 : arg7.IsWhole) (arg8 : Memref sig .tc .vmem S12x32 .f32) (harg8 : arg8.IsWhole) (arg9 : Memref sig .tc .vmem S32 .f32) (harg9 : arg9.IsWhole) (arg10 : Memref sig .tc .vmem S128x32 .f32) (harg10 : arg10.IsWhole) (arg11 : Memref sig .tc .vmem S128x12 .f32) (harg11 : arg11.IsWhole) (hc0 : ¬cond0_0 i) (hc1 : cond0_1 i)
    (x0 : Vec F S128x64x64 .f32) (x1 : Vec F S128x1 .i32) (x2 : Vec F S64x16 .f32) (x3 : Vec F S16 .f32) (x4 : Vec F S16x12 .f32) (x5 : Vec F S12 .f32) (x6 : Vec F S12x32 .f32) (x7 : Vec F S32 .f32) (xs0 : Vec F S128x12 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 xs0 (k0_pay4 i x0 x2 x3 x4 x5 x1) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, View.ld_unit_zero (S := S128x64x64) hz3, View.ld_unit_zero (S := S128x1) hz2, View.ld_unit_zero (S := S64x16) hz2, View.ld_unit_zero (S := S16) hz1, View.ld_unit_zero (S := S16x12) hz2, View.ld_unit_zero (S := S12) hz1, View.ld_unit_zero (S := S12x32) hz2, View.ld_unit_zero (S := S32) hz1, View.ld_unit_zero (S := S128x12) hz2]

/-- The last block of a set: the result block is the last layer applied to the running sums just stored, which the
    body reads back. -/
theorem out_C (c : Dev nD) (i : grid0.Coords) (arg2 : Memref sig .tc .vmem S128x64x64 .f32) (harg2 : arg2.IsWhole) (arg3 : Memref sig .tc .vmem S128x1 .i32) (harg3 : arg3.IsWhole) (arg4 : Memref sig .tc .vmem S64x16 .f32) (harg4 : arg4.IsWhole) (arg5 : Memref sig .tc .vmem S16 .f32) (harg5 : arg5.IsWhole) (arg6 : Memref sig .tc .vmem S16x12 .f32) (harg6 : arg6.IsWhole) (arg7 : Memref sig .tc .vmem S12 .f32) (harg7 : arg7.IsWhole) (arg8 : Memref sig .tc .vmem S12x32 .f32) (harg8 : arg8.IsWhole) (arg9 : Memref sig .tc .vmem S32 .f32) (harg9 : arg9.IsWhole) (arg10 : Memref sig .tc .vmem S128x32 .f32) (harg10 : arg10.IsWhole) (arg11 : Memref sig .tc .vmem S128x12 .f32) (harg11 : arg11.IsWhole) (hc0 : ¬cond0_0 i) (hc1 : cond0_1 i)
    (x0 : Vec F S128x64x64 .f32) (x1 : Vec F S128x1 .i32) (x2 : Vec F S64x16 .f32) (x3 : Vec F S16 .f32) (x4 : Vec F S16x12 .f32) (x5 : Vec F S12 .f32) (x6 : Vec F S12x32 .f32) (x7 : Vec F S32 .f32) (xs0 : Vec F S128x12 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x6 x7 (k0_pay1 xs0 (k0_pay4 i x0 x2 x3 x4 x5 x1)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2, View.readCov_unit_zero (S := S128x12) _ hz2]
  simp only [View.readAt_eq_ld, harg2.read_unread, harg3.read_unread, harg4.read_unread, harg5.read_unread, harg6.read_unread, harg7.read_unread, harg8.read_unread, harg9.read_unread, harg11.read_unread, View.ld_unit_zero (S := S128x64x64) hz3, View.ld_unit_zero (S := S128x1) hz2, View.ld_unit_zero (S := S64x16) hz2, View.ld_unit_zero (S := S16) hz1, View.ld_unit_zero (S := S16x12) hz2, View.ld_unit_zero (S := S12) hz1, View.ld_unit_zero (S := S12x32) hz2, View.ld_unit_zero (S := S32) hz1, View.ld_unit_zero (S := S128x12) hz2]

/-- The first block of a set: the running sums are cleared, read back, and this block's contribution added. -/
theorem sout_A (c : Dev nD) (i : grid0.Coords) (arg2 : Memref sig .tc .vmem S128x64x64 .f32) (harg2 : arg2.IsWhole) (arg3 : Memref sig .tc .vmem S128x1 .i32) (harg3 : arg3.IsWhole) (arg4 : Memref sig .tc .vmem S64x16 .f32) (harg4 : arg4.IsWhole) (arg5 : Memref sig .tc .vmem S16 .f32) (harg5 : arg5.IsWhole) (arg6 : Memref sig .tc .vmem S16x12 .f32) (harg6 : arg6.IsWhole) (arg7 : Memref sig .tc .vmem S12 .f32) (harg7 : arg7.IsWhole) (arg8 : Memref sig .tc .vmem S12x32 .f32) (harg8 : arg8.IsWhole) (arg9 : Memref sig .tc .vmem S32 .f32) (harg9 : arg9.IsWhole) (arg10 : Memref sig .tc .vmem S128x32 .f32) (harg10 : arg10.IsWhole) (arg11 : Memref sig .tc .vmem S128x12 .f32) (harg11 : arg11.IsWhole) (hc0 : cond0_0 i) (hc1 : ¬cond0_1 i)
    (x0 : Vec F S128x64x64 .f32) (x1 : Vec F S128x1 .i32) (x2 : Vec F S64x16 .f32) (x3 : Vec F S16 .f32) (x4 : Vec F S16x12 .f32) (x5 : Vec F S12 .f32) (x6 : Vec F S12x32 .f32) (x7 : Vec F S32 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay3 (F := F)) (k0_pay4 i x0 x2 x3 x4 x5 x1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S128x12) hz2, View.readCov_unit_zero (S := S128x12) _ hz2]
  simp only [View.readAt_eq_ld, harg2.read_unread, harg3.read_unread, harg4.read_unread, harg5.read_unread, harg6.read_unread, harg7.read_unread, harg8.read_unread, harg9.read_unread, harg11.read_unread, View.ld_unit_zero (S := S128x64x64) hz3, View.ld_unit_zero (S := S128x1) hz2, View.ld_unit_zero (S := S64x16) hz2, View.ld_unit_zero (S := S16) hz1, View.ld_unit_zero (S := S16x12) hz2, View.ld_unit_zero (S := S12) hz1, View.ld_unit_zero (S := S12x32) hz2, View.ld_unit_zero (S := S32) hz1, View.ld_unit_zero (S := S128x12) hz2]

end Cert.KernelIdeal.Pieces

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibFlatten.lean ====
/-
  Two row-major reshapes read at an index given by coordinates.
  • MERGING the two leading axes, [a, b, c] → [n, c] with n = a · b: entry (j, k) of the result is entry
    (j / b, j % b, k) of the operand.
  • SPLITTING the last axis, [n, d] → [n, b, c] with d = b · c: entry (i, p, q) of the result is entry
    (i, p · c + q) of the operand.
  Both are the library's `shapeCast_apply` with the row-major positions written out.
-/
import Idealize.ShloMosaic.Lib.Pipeline.Value
import Idealize.ShloMosaic.Lib.ValueIdx

namespace Idealize.ShloMosaic.ValueIdx

open Idealize.ShloMosaic

variable {α : Type}

/-- `[a, b, c]` viewed as `[n, c]`, `n = a · b`: at `(j, k)` the operand at `(j / b, j % b, k)`. -/
theorem shapeCast_abc_nc_apply {a b c n : ℕ} (hn : n = a * b) (hb : 0 < b) (x : (⟨3, ![a, b, c]⟩ : Shape).Idx → α)
    (h : (⟨3, ![a, b, c]⟩ : Shape).ShapeCasts ⟨2, ![n, c]⟩) (j : Fin n) (k : Fin c) :
    shapeCast ⟨2, ![n, c]⟩ x h (ix2 j k)
      = x (ix3 (⟨j.val / b, Nat.div_lt_of_lt_mul (lt_of_lt_of_eq j.isLt (hn.trans (Nat.mul_comm a b)))⟩ : Fin a)
          (⟨j.val % b, Nat.mod_lt _ hb⟩ : Fin b) k) :=
  shapeCast_apply x h _ _ (by
    rw [Shape.rowMajor_val_three, Shape.rowMajor_val_two]
    show (j.val / b * b + j.val % b) * c + k.val = j.val * c + k.val
    rw [Nat.div_add_mod'])

/-- `[n, d]` viewed as `[n, b, c]`, `d = b · c`: at `(i, p, q)` the operand at `(i, p · c + q)`. -/
theorem shapeCast_nd_nbc_apply {n b c d : ℕ} (hd : d = b * c) (x : (⟨2, ![n, d]⟩ : Shape).Idx → α)
    (h : (⟨2, ![n, d]⟩ : Shape).ShapeCasts ⟨3, ![n, b, c]⟩) (i : Fin n) (p : Fin b) (q : Fin c) :
    shapeCast ⟨3, ![n, b, c]⟩ x h (ix3 i p q)
      = x (ix2 i (⟨p.val * c + q.val, by
            rw [hd]
            calc p.val * c + q.val < p.val * c + c := Nat.add_lt_add_left q.isLt _
              _ = (p.val + 1) * c := by rw [Nat.add_mul, Nat.one_mul]
              _ ≤ b * c := Nat.mul_le_mul_right c p.isLt⟩ : Fin d)) :=
  shapeCast_apply x h _ _ (by
    rw [Shape.rowMajor_val_three, Shape.rowMajor_val_two]
    show i.val * d + (p.val * c + q.val) = (i.val * b + p.val) * c + q.val
    rw [hd, Nat.add_mul, Nat.mul_assoc, Nat.add_assoc])

end Idealize.ShloMosaic.ValueIdx
-- ==== Proof.LibReshape.lean ====
/-
  Row-major reshapes and one broadcast read at an index given by coordinates.
  • A trailing unit axis added, [a, b] → [a, b, 1]: entry (p, q, u) of the result is entry (p, q) of the operand.
  • That unit axis broadcast, [a, b, 1] → [a, b, c]: entry (p, q, r) of the result is entry (p, q, 0) of the operand.
  • MERGING the two trailing axes, [a, b, c] → [a, d] with d = b · c: entry (o, i) of the result is entry
    (o, i / c, i % c) of the operand.
  • SPLITTING the leading axis, [n, c] → [a, b, c] with n = a · b: entry (p, q, k) of the result is entry
    (p · b + q, k) of the operand.
  The reshapes are the library's `shapeCast_apply` with the row-major positions written out, the broadcast its
  `broadcastTo_apply` axis by axis.
-/
import Idealize.ShloMosaic.Lib.Pipeline.Value
import Idealize.ShloMosaic.Lib.ValueIdx

namespace Idealize.ShloMosaic.ValueIdx

open Idealize.ShloMosaic

variable {α : Type}

/-- `[a, b]` viewed as `[a, b, 1]`: at `(p, q, u)` the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: at `(p, q, r)` the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` viewed as `[a, d]`, `d = b · c`: at `(o, i)` the operand at `(o, i / c, i % c)`. -/
theorem shapeCast_abc_ad_apply {a b c d : ℕ} (hd : d = b * c) (hc : 0 < c) (x : (⟨3, ![a, b, c]⟩ : Shape).Idx → α)
    (h : (⟨3, ![a, b, c]⟩ : Shape).ShapeCasts ⟨2, ![a, d]⟩) (o : Fin a) (i : Fin d) :
    shapeCast ⟨2, ![a, d]⟩ x h (ix2 o i)
      = x (ix3 o (⟨i.val / c, Nat.div_lt_of_lt_mul (lt_of_lt_of_eq i.isLt (hd.trans (Nat.mul_comm b c)))⟩ : Fin b)
          (⟨i.val % c, Nat.mod_lt _ hc⟩ : Fin c)) :=
  shapeCast_apply x h _ _ (by
    rw [Shape.rowMajor_val_three, Shape.rowMajor_val_two]
    show (o.val * b + i.val / c) * c + i.val % c = o.val * d + i.val
    rw [Nat.add_mul, Nat.add_assoc, Nat.div_add_mod' i.val c, Nat.mul_assoc, ← hd])

/-- `[n, c]` viewed as `[a, b, c]`, `n = a · b`: at `(p, q, k)` the operand at `(p · b + q, k)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k)
      = x (ix2 (⟨p.val * b + q.val, by
            rw [hn]
            calc p.val * b + q.val < p.val * b + b := Nat.add_lt_add_left q.isLt _
              _ = (p.val + 1) * b := by rw [Nat.add_mul, Nat.one_mul]
              _ ≤ a * b := Nat.mul_le_mul_right b p.isLt⟩ : Fin n) k) :=
  shapeCast_apply x h _ _ (by
    rw [Shape.rowMajor_val_three, Shape.rowMajor_val_two]
    rfl)

end Idealize.ShloMosaic.ValueIdx
-- ==== Proof.LibMidSum.lean ====
/-
  A sum along the MIDDLE axis of a rank-3 array, read at an index given by coordinates.

  An index of a rank-3 shape is determined by its three coordinates' values, whatever term spells it.  A lane
  reduction `multi_reduction <add>` of an [a, K, c] array along its second axis, from the zero word, read at (r, j)
  over the extended reals, is the sum over k of the entries (r, k, j).
-/
import Idealize.ShloMosaic.PureOps.Ideal.Laws
import Idealize.ShloMosaic.Lib.ValueIdx

namespace Idealize.ShloMosaic.ValueIdx

open Idealize.ShloMosaic

/-- An index of a rank-3 shape is the one with the same three coordinates. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- A sum along the second axis of an [a, K, c] array, from the zero word, read at `(r, j)`: `∑ k, src (r, k, j)`.
    The shape fact, the format fact and the accumulator's neutrality are whatever proofs the printed operation
    carries. -/
theorem multiReduction_add_mid_apply {a K c : ℕ} (src : FVec Ideal ⟨3, ![a, K, c]⟩ .f32)
    (hr : (⟨3, ![a, K, c]⟩ : Shape).Reduces [1] ⟨2, ![a, c]⟩) (hφ : FKind.Formats .f32)
    (hacc : (0x00000000#32 : BitVec 32) = FKind.add.neutral .f32 hφ) (r : Fin a) (j : Fin c) :
    multiReduction .add [1] ⟨2, ![a, c]⟩ src 0x00000000#32 hr hφ hacc (ix2 r j) = ∑ k : Fin K, src (ix3 r k j) :=
  (Ideal.multiReduction_add_single src _ hr hφ hacc (ix2 r j)).trans
    (Finset.sum_congr rfl fun k _ => congrArg src (idx3_ext _ r k j rfl rfl rfl))

end Idealize.ShloMosaic.ValueIdx
-- ==== Proof.PayloadAt.lean ====
/-
  The kernel body's arithmetic at one grid point, read entry by entry on the extended reals.

  At a point the body holds a block of 128 batch rows by 64 positions.  Flattening the block to 8192 rows, two
  matrix products with a rectifier between them give every position's second-layer value; a position of the block
  is position `64 s + q` of its set, where `s` is the chunk the point is on, and it counts when that number is below
  the set's size (signed): the comparison's bit, widened and converted, is the factor 1 or 0.  The contribution of the
  block to a running sum is the sum of those products along the block's 64 positions.  A change of float format is the
  identity here, and the only literal is the zero word.
-/
import proofs.«138510_j56221121905193_1_alg».proof.Proof.Gen.KernelIdeal.Skeleton
import proofs.«138510_j56221121905193_1_alg».proof.Proof.LibDot
import proofs.«138510_j56221121905193_1_alg».proof.Proof.LibFlatten
import proofs.«138510_j56221121905193_1_alg».proof.Proof.LibColumn
import proofs.«138510_j56221121905193_1_alg».proof.Proof.LibReshape
import proofs.«138510_j56221121905193_1_alg».proof.Proof.LibMidSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-! ## The three matrix products' dimension numbers: rows by columns, one contracted axis -/

theorem plainW1 : Cert.LibDot.Plain dot_S8192x64_S64x16_S8192x16_1_0_0_1_n_n where
  hrank := rfl
  hs := rfl
  hl0 := fun j k => by
    unfold DotDims.lhsIdx
    rw [dif_neg (show ¬(0 : Fin S8192x64.rank) ∈ dot_S8192x64_S64x16_S8192x16_1_0_0_1_n_n.lhsBatch by decide), dif_pos (show (0 : Fin S8192x64.rank) ∈ dot_S8192x64_S64x16_S8192x16_1_0_0_1_n_n.lhsNonContracting by decide)]
    rfl
  hl1 := fun j k => dot_S8192x64_S64x16_S8192x16_1_0_0_1_n_n.lhsIdx_val_of_single rfl j k
  hr0 := fun j k => dot_S8192x64_S64x16_S8192x16_1_0_0_1_n_n.rhsIdx_val_of_single rfl j k
  hr1 := fun j k => by
    unfold DotDims.rhsIdx
    rw [dif_neg (show ¬(1 : Fin S64x16.rank) ∈ dot_S8192x64_S64x16_S8192x16_1_0_0_1_n_n.rhsBatch by decide), dif_pos (show (1 : Fin S64x16.rank) ∈ dot_S8192x64_S64x16_S8192x16_1_0_0_1_n_n.rhsNonContracting by decide)]
    rfl

theorem plainW2 : Cert.LibDot.Plain dot_S8192x16_S16x12_S8192x12_1_0_0_1_n_n where
  hrank := rfl
  hs := rfl
  hl0 := fun j k => by
    unfold DotDims.lhsIdx
    rw [dif_neg (show ¬(0 : Fin S8192x16.rank) ∈ dot_S8192x16_S16x12_S8192x12_1_0_0_1_n_n.lhsBatch by decide), dif_pos (show (0 : Fin S8192x16.rank) ∈ dot_S8192x16_S16x12_S8192x12_1_0_0_1_n_n.lhsNonContracting by decide)]
    rfl
  hl1 := fun j k => dot_S8192x16_S16x12_S8192x12_1_0_0_1_n_n.lhsIdx_val_of_single rfl j k
  hr0 := fun j k => dot_S8192x16_S16x12_S8192x12_1_0_0_1_n_n.rhsIdx_val_of_single rfl j k
  hr1 := fun j k => by
    unfold DotDims.rhsIdx
    rw [dif_neg (show ¬(1 : Fin S16x12.rank) ∈ dot_S8192x16_S16x12_S8192x12_1_0_0_1_n_n.rhsBatch by decide), dif_pos (show (1 : Fin S16x12.rank) ∈ dot_S8192x16_S16x12_S8192x12_1_0_0_1_n_n.rhsNonContracting by decide)]
    rfl

theorem plainW3 : Cert.LibDot.Plain dot_S128x12_S12x32_S128x32_1_0_0_1_n_n where
  hrank := rfl
  hs := rfl
  hl0 := fun j k => by
    unfold DotDims.lhsIdx
    rw [dif_neg (show ¬(0 : Fin S128x12.rank) ∈ dot_S128x12_S12x32_S128x32_1_0_0_1_n_n.lhsBatch by decide), dif_pos (show (0 : Fin S128x12.rank) ∈ dot_S128x12_S12x32_S128x32_1_0_0_1_n_n.lhsNonContracting by decide)]
    rfl
  hl1 := fun j k => dot_S128x12_S12x32_S128x32_1_0_0_1_n_n.lhsIdx_val_of_single rfl j k
  hr0 := fun j k => dot_S128x12_S12x32_S128x32_1_0_0_1_n_n.rhsIdx_val_of_single rfl j k
  hr1 := fun j k => by
    unfold DotDims.rhsIdx
    rw [dif_neg (show ¬(1 : Fin S12x32.rank) ∈ dot_S128x12_S12x32_S128x32_1_0_0_1_n_n.rhsBatch by decide), dif_pos (show (1 : Fin S12x32.rank) ∈ dot_S128x12_S12x32_S128x32_1_0_0_1_n_n.rhsNonContracting by decide)]
    rfl

/-! ## The three small payloads, read at an index -/

/-- The cleared running sums: zero everywhere. -/
theorem pay3_apply (y : S128x12.Idx) : k0_pay3 (F := Ideal) y = 0 := by
  unfold k0_pay3
  rw [shapeCast_self]
  exact Ideal.ofBits_zero_f32

/-- One accumulation step: the previous running sum plus the block's contributions summed along its 64 positions. -/
theorem pay1_apply (acc : Vec Ideal S128x12 .f32) (v : FVec Ideal S128x64x12 .f32) (rr : Fin 128) (j : Fin 12) :
    k0_pay1 (F := Ideal) acc v (ix2 rr j) = acc (ix2 rr j) + ∑ q : Fin 64, v (ix3 rr q j) := by
  unfold k0_pay1
  rw [shapeCast_self, addf_apply]
  exact congrArg (fun z : EReal => acc (ix2 rr j) + z) (multiReduction_add_mid_apply v _ _ _ rr j)

/-- The last layer: the running sums times the weights, plus the bias (the narrower float format is the identity on
    the extended reals). -/
theorem pay2_apply (W3 : Vec Ideal S12x32 .f32) (b3 : Vec Ideal S32 .f32) (acc : Vec Ideal S128x12 .f32) (rr : Fin 128) (n : Fin 32) :
    k0_pay2 (F := Ideal) W3 b3 acc (ix2 rr n) = (∑ j : Fin 12, acc (ix2 rr j) * W3 (ix2 j n)) + b3 (ix1 n) := by
  unfold k0_pay2
  rw [addf_apply, Cert.LibDot.matmul_ix2 plainW3, broadcastTo_1b_ab_apply, shapeCast_a_1a_apply]
  rfl

/-! ## The block's contribution, read at an index -/

/-- The two dense layers over one block of positions, at block coordinates: row `rr` of the block's 128 batch rows,
    position `q` of its 64 positions, unit `j`. -/
def blkHid (X : Vec Ideal S128x64x64 .f32) (W1 : Vec Ideal S64x16 .f32) (b1 : Vec Ideal S16 .f32)
    (W2 : Vec Ideal S16x12 .f32) (b2 : Vec Ideal S12 .f32) (rr : Fin 128) (q : Fin 64) (j : Fin 12) : EReal :=
  (∑ k : Fin 16, max ((∑ f : Fin 64, X (ix3 rr q f) * W1 (ix2 f k)) + b1 (ix1 k)) 0 * W2 (ix2 k j)) + b2 (ix1 j)

/-- A one-bit word widened with zeros and read as a signed integer is 1 or 0. -/
theorem mask_val (b : BitVec 1) :
    FloatOps.sitofp (F := Ideal) .f32 (BitVec.setWidth 32 b) = if b = 1#1 then (1 : EReal) else 0 := by
  have hb : b = 0#1 ∨ b = 1#1 := by
    revert b; decide
  rcases hb with rfl | rfl
  · show (((BitVec.setWidth 32 (0#1)).toInt : ℝ) : EReal) = _
    rw [show (BitVec.setWidth 32 (0#1)).toInt = 0 from by decide, if_neg (by decide)]
    simp
  · show (((BitVec.setWidth 32 (1#1)).toInt : ℝ) : EReal) = _
    rw [show (BitVec.setWidth 32 (1#1)).toInt = 1 from by decide, if_pos rfl]
    simp

/-- The position's word: lane `q` of chunk `s` is position `64 s + q`; below `2 ^ 32` nothing wraps. -/
theorem pos_word (s : ℕ) (hs : s < 8) (q : Fin 64) :
    IntOp.addi (BitVec.ofNat 32 q.val) (Scalar.muli (BitVec.ofNat 32 s) 64#32) = BitVec.ofNat 32 (64 * s + q.val) := by
  show BitVec.ofNat 32 q.val + BitVec.ofNat 32 s * 64#32 = _
  apply BitVec.eq_of_toNat_eq
  have hq := q.isLt
  simp only [BitVec.toNat_add, BitVec.toNat_mul, BitVec.toNat_ofNat]
  omega

/-- The block's contribution at row `rr`, position `q`, unit `j`: the second layer's value times the 1-or-0 factor of
    "position `64 s + q` is below the row's size". -/
theorem pay4_apply (i : grid0.Coords) (X : Vec Ideal S128x64x64 .f32) (W1 : Vec Ideal S64x16 .f32) (b1 : Vec Ideal S16 .f32)
    (W2 : Vec Ideal S16x12 .f32) (b2 : Vec Ideal S12 .f32) (sz : Vec Ideal S128x1 .i32) (rr : Fin 128) (q : Fin 64) (j : Fin 12) :
    k0_pay4 (F := Ideal) i X W1 b1 W2 b2 sz (ix3 rr q j)
      = blkHid X W1 b1 W2 b2 rr q j
        * (if IntOp.cmpi .slt (BitVec.ofNat 32 (64 * (i 1).val + q.val)) (sz (ix2 rr (0 : Fin 1))) = 1#1 then (1 : EReal) else 0) := by
  unfold k0_pay4
  rw [mulf_apply, broadcastTo_ab1_abc_apply, shapeCast_ab_ab1_apply, sitofp_apply, extui_apply]
  refine congrArg₂ (fun a b : EReal => a * b) ?_ ?_
  · rw [shapeCast_nc_abc_apply (a := 128) (b := 64) (by norm_num), addf_apply, Cert.LibDot.matmul_ix2 plainW2,
      broadcastTo_1b_ab_apply, shapeCast_a_1a_apply]
    unfold blkHid
    refine congrArg₂ (fun a b : EReal => a + b) (Finset.sum_congr rfl fun k _ => ?_) rfl
    refine congrArg₂ (fun a b : EReal => a * b) ?_ rfl
    rw [truncf_apply, maximumf_apply, addf_apply, Cert.LibDot.matmul_ix2 plainW1, broadcastTo_1b_ab_apply,
      shapeCast_a_1a_apply, broadcast_apply]
    refine congrArg₂ max (congrArg₂ (fun a b : EReal => a + b) (Finset.sum_congr rfl fun f _ => ?_) rfl) Ideal.ofBits_zero_f32
    rw [truncf_apply, truncf_apply, shapeCast_abc_nc_apply (a := 128) (b := 64) (by norm_num) (by norm_num)]
    refine congrArg₂ (fun a b : EReal => a * b) (congrArg X ?_) rfl
    have hr := rr.isLt
    have hq := q.isLt
    exact idx3_ext _ rr q f (by show (rr.val * 64 + q.val) / 64 = rr.val; omega)
      (by show (rr.val * 64 + q.val) % 64 = q.val; omega) rfl
  · show FloatOps.sitofp (F := Ideal) .f32 (BitVec.setWidth 32 (IntOp.cmpi .slt
        (IntOp.addi (iota .tc S128x64 32 [1] iota_S128x64_d1_w32 (ix2 rr q)) (Scalar.muli (BitVec.ofNat 32 (i 1).val) 64#32))
        (broadcastTo S128x64 (shapeCast S128x1 sz shapeCasts_S128x1_S128x1) broadcasts_S128x1_S128x64 (ix2 rr q)))) = _
    rw [iota_single_apply, broadcastTo_a1_ab_apply, shapeCast_self, mask_val]
    show (if IntOp.cmpi .slt (IntOp.addi (BitVec.ofNat 32 q.val) (Scalar.muli (BitVec.ofNat 32 (i 1).val) 64#32)) (sz (ix2 rr (0 : Fin 1))) = 1#1 then (1 : EReal) else 0) = _
    rw [pos_word (i 1).val (i 1).isLt q]

end Cert.KernelIdeal.PayloadAt

end
-- ==== Proof.Chain.lean ====
/-
  The running sums the kernel keeps between grid points, followed over the grid.

  Point `n` of the 16 × 8 grid is chunk `n % 8` of batch tile `n / 8`.  After it the running sums of row `rr` of the
  tile hold the kept values of batch row `128 (n / 8) + rr` summed over positions `0 … 64 (n % 8 + 1) - 1`: the first
  chunk of a tile starts from zeros, every other chunk adds its 64 positions to what the point before left, and
  a sum over `range (a + 64)` is the sum over `range a` plus the sum of the next 64 terms.  Only associativity and
  commutativity of the sum are used, so nothing here asks the values to be finite.  At the last chunk of a tile the
  result block is the last layer applied to the complete sums.
-/
import proofs.«138510_j56221121905193_1_alg».proof.Proof.Blocks
import proofs.«138510_j56221121905193_1_alg».proof.Proof.Pieces
import proofs.«138510_j56221121905193_1_alg».proof.Proof.PayloadAt
import proofs.«138510_j56221121905193_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Blocks Cert.KernelIdeal.PayloadAt Cert.KernelIdeal.Pieces Cert.SetPool

variable (m : (ℓ : Loc nD τ sig) → Buf (Elt Ideal) ℓ)

/-- The eight argument arrays on device `c`. -/
def args (c : Dev nD) : Args where
  X := m ((c : Thread nD τ).loc main_arg0)
  sz := m ((c : Thread nD τ).loc main_arg1)
  W1 := m ((c : Thread nD τ).loc main_arg2)
  b1 := m ((c : Thread nD τ).loc main_arg3)
  W2 := m ((c : Thread nD τ).loc main_arg4)
  b2 := m ((c : Thread nD τ).loc main_arg5)
  W3 := m ((c : Thread nD τ).loc main_arg6)
  b3 := m ((c : Thread nD τ).loc main_arg7)

/-- A product with the factor 1 or 0 keeps the value or gives zero, on every extended real. -/
theorem mul_ite_one_zero (x : EReal) (p : Prop) [Decidable p] : x * (if p then (1 : EReal) else 0) = if p then x else 0 := by
  split <;> simp

/-- One position of a block, against the specification: the body's product of the second layer's value with the
    1-or-0 factor is the kept value at the batch row and position the block's entry stands for. -/
theorem point_term (c : Dev nD) (t : Fin cfg0.N) (rr : Fin 128) (q : Fin 64) (j : Fin 12) :
    blkHid (iblk m c 0 t) (iblk m c 2 t) (iblk m c 3 t) (iblk m c 4 t) (iblk m c 5 t) rr q j
      * (if IntOp.cmpi .slt (BitVec.ofNat 32 (64 * ((grid0.coords t) 1).val + q.val))
            ((iblk m c 1 t : Vec Ideal S128x1 .i32) (ix2 rr (0 : Fin 1))) = 1#1 then (1 : EReal) else 0)
      = kept (args m c) (gRow t rr) (gPos t q) j := by
  have hh : blkHid (iblk m c 0 t) (iblk m c 2 t) (iblk m c 3 t) (iblk m c 4 t) (iblk m c 5 t) rr q j
      = hid2 (args m c) (gRow t rr) (gPos t q) j := by
    unfold blkHid hid2 hid1
    simp only [blk0 m c t, blk2 m c t, blk3 m c t, blk4 m c t, blk5 m c t]
    rfl
  rw [hh, chunk_coord t, blk1 m c t rr, mul_ite_one_zero]
  rfl

/-- A point's contribution to a running sum, as a sum over the naturals below 64: the kept values of positions
    `64 (t % 8) + x`. -/
theorem contrib (c : Dev nD) (t : Fin cfg0.N) (rr : Fin 128) (j : Fin 12) :
    ∑ q : Fin 64, k0_pay4 (F := Ideal) (grid0.coords t) (iblk m c 0 t) (iblk m c 2 t) (iblk m c 3 t) (iblk m c 4 t)
        (iblk m c 5 t) (iblk m c 1 t) (ix3 rr q j)
      = ∑ x ∈ Finset.range 64, keptN (args m c) (gRow t rr) j (64 * (t.val % 8) + x) := by
  rw [← Fin.sum_univ_eq_sum_range (fun x => keptN (args m c) (gRow t rr) j (64 * (t.val % 8) + x)) 64]
  refine Finset.sum_congr rfl fun q _ => ?_
  refine (pay4_apply (grid0.coords t) (iblk m c 0 t) (iblk m c 2 t) (iblk m c 3 t) (iblk m c 4 t) (iblk m c 5 t)
    (iblk m c 1 t) rr q j).trans ?_
  rw [point_term m c t rr q j]
  exact (keptN_of_lt (args m c) (gRow t rr) j (64 * (t.val % 8) + q.val) (gPos t q).isLt).symm

/-- The block's contribution at point `t`, as the body computes it from the point's blocks. -/
abbrev contribVec (c : Dev nD) (t : Fin cfg0.N) : FVec Ideal S128x64x12 .f32 :=
  k0_pay4 (F := Ideal) (grid0.coords t) (iblk m c 0 t) (iblk m c 2 t) (iblk m c 3 t) (iblk m c 4 t) (iblk m c 5 t) (iblk m c 1 t)

/-- At the first chunk of a batch tile the running sums are the block's contribution added to zeros. -/
theorem scratch_A (c : Dev nD) (t : Fin cfg0.N) (h0 : t.val % 8 = 0) (h1 : ¬t.val % 8 = 7) :
    (outsAt0 m c t.val t.isLt).2 = k0_pay1 (k0_pay3 (F := Ideal)) (contribVec m c t) :=
  (congrArg Prod.snd (outsAt0_A m c t h0 h1)).trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t))

/-- At an inner chunk they are the previous point's running sums plus the block's contribution. -/
theorem scratch_B (c : Dev nD) (t : Fin cfg0.N) (h0 : ¬t.val % 8 = 0) (h1 : ¬t.val % 8 = 7) :
    (outsAt0 m c t.val t.isLt).2 = k0_pay1 (outsAt0 m c (t.val - 1) (Nat.lt_of_le_of_lt (Nat.sub_le _ _) t.isLt)).2 (contribVec m c t) :=
  (congrArg Prod.snd (outsAt0_B m c t h0 h1)).trans (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2)

/-- At the last chunk likewise, -/
theorem scratch_C (c : Dev nD) (t : Fin cfg0.N) (h0 : ¬t.val % 8 = 0) (h1 : t.val % 8 = 7) :
    (outsAt0 m c t.val t.isLt).2 = k0_pay1 (outsAt0 m c (t.val - 1) (Nat.lt_of_le_of_lt (Nat.sub_le _ _) t.isLt)).2 (contribVec m c t) :=
  (congrArg Prod.snd (outsAt0_C m c t h0 h1)).trans (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2)

/-- and the result block is the last layer of those running sums. -/
theorem result_C (c : Dev nD) (t : Fin cfg0.N) (h0 : ¬t.val % 8 = 0) (h1 : t.val % 8 = 7) :
    (outsAt0 m c t.val t.isLt).1 = k0_pay2 (iblk m c 6 t) (iblk m c 7 t) ((outsAt0 m c t.val t.isLt).2) := by
  rw [scratch_C m c t h0 h1]
  exact (congrArg Prod.fst (outsAt0_C m c t h0 h1)).trans (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2)

/-- The sum of one batch row's kept values over its first `cnt` positions, the row given as a natural number. -/
def rowSum (A : Args) (r : ℕ) (j : Fin 12) (cnt : ℕ) : EReal :=
  if h : r < 2048 then ∑ x ∈ Finset.range cnt, keptN A ⟨r, h⟩ j x else 0

theorem rowSum_gRow (A : Args) (n : ℕ) (h : n < cfg0.N) (rr : Fin 128) (j : Fin 12) (cnt : ℕ) :
    rowSum A (128 * (n / 8) + rr.val) j cnt = ∑ x ∈ Finset.range cnt, keptN A (gRow ⟨n, h⟩ rr) j x :=
  dif_pos (gRow ⟨n, h⟩ rr).isLt

/-- THE RUNNING SUMS after point `n`: the kept values of the tile's rows over the positions of the chunks done so far,
    `64 (n % 8 + 1)` of them — by induction on the point: the first chunk of a tile starts from zero, every other
    chunk appends its 64 positions to the stretch before it. -/
theorem scratch_eq (c : Dev nD) : ∀ (n : ℕ) (h : n < cfg0.N) (rr : Fin 128) (j : Fin 12),
    ((outsAt0 m c n h).2 : Vec Ideal S128x12 .f32) (ix2 rr j)
      = rowSum (args m c) (128 * (n / 8) + rr.val) j (64 * (n % 8 + 1))
  | 0, h, rr, j => by
    rw [scratch_A m c ⟨0, h⟩ rfl (by show ¬(0 % 8 = 7); decide), pay1_apply, pay3_apply, zero_add, contrib m c ⟨0, h⟩ rr j,
      rowSum_gRow (args m c) 0 h rr j]
    simp
  | n + 1, h, rr, j => by
    have hN : n + 1 < 128 := lt_of_lt_of_eq h N_0
    by_cases h0 : (n + 1) % 8 = 0
    · have h1 : ¬(n + 1) % 8 = 7 := by omega
      rw [scratch_A m c ⟨n + 1, h⟩ h0 h1, pay1_apply, pay3_apply, zero_add, contrib m c ⟨n + 1, h⟩ rr j,
        rowSum_gRow (args m c) (n + 1) h rr j]
      show ∑ x ∈ Finset.range 64, keptN _ _ j (64 * ((n + 1) % 8) + x) = ∑ x ∈ Finset.range (64 * ((n + 1) % 8 + 1)), _
      rw [h0]
      simp
    · have ih := scratch_eq c n (Nat.lt_of_succ_lt h) rr j
      have e1 : n / 8 = (n + 1) / 8 := by omega
      have e2 : n % 8 + 1 = (n + 1) % 8 := by omega
      rw [e1, e2, rowSum_gRow (args m c) (n + 1) h rr j] at ih
      have step : ((outsAt0 m c (n + 1) h).2 : Vec Ideal S128x12 .f32)
          = k0_pay1 ((outsAt0 m c n (Nat.lt_of_succ_lt h)).2) (contribVec m c ⟨n + 1, h⟩) := by
        by_cases h1 : (n + 1) % 8 = 7
        · exact scratch_C m c ⟨n + 1, h⟩ h0 h1
        · exact scratch_B m c ⟨n + 1, h⟩ h0 h1
      rw [step, pay1_apply, ih, contrib m c ⟨n + 1, h⟩ rr j, rowSum_gRow (args m c) (n + 1) h rr j]
      show _ + ∑ x ∈ Finset.range 64, keptN _ _ j (64 * ((n + 1) % 8) + x) = ∑ x ∈ Finset.range (64 * ((n + 1) % 8 + 1)), _
      rw [Nat.mul_add, Nat.mul_one, Finset.sum_range_add]

end Cert.KernelIdeal.Chain

end
-- ==== Proof.Whole.lean ====
/-
  From the blocks the kernel writes back to the whole result array.

  The result window's block index is the batch tile, and a block is written back only after the last chunk of its tile,
  when the running sums are complete.  What is written back then is, entry by entry, the specification's value at batch
  row `128 (t / 8) + rr`; every row `r` of the result lies in the block written after the last chunk of tile `r / 128`; so
  after the run the result array is the specification's array of the argument arrays.
-/
import proofs.«138510_j56221121905193_1_alg».proof.Proof.Chain
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.PayloadAt Cert.KernelIdeal.Chain Cert.SetPool

variable (m : (ℓ : Loc nD τ sig) → Buf (Elt Ideal) ℓ) (ρ : Dev nD → PrngReg)

/-- The result block at the last chunk of a tile, entry by entry: the specification's value at the batch row the
    block's row stands for. -/
theorem result_at (c : Dev nD) (t : Fin cfg0.N) (h0 : ¬t.val % 8 = 0) (h7 : t.val % 8 = 7) (rr : Fin 128) (n : Fin 32) :
    ((outsAt0 m c t.val t.isLt).1 : Vec Ideal S128x32 .f32) (ix2 rr n) = out (args m c) (gRow t rr) n := by
  rw [result_C m c t h0 h7]
  refine (pay2_apply (iblk m c 6 t) (iblk m c 7 t) ((outsAt0 m c t.val t.isLt).2) rr n).trans ?_
  unfold out
  refine congrArg₂ (fun a b : EReal => a + b) (Finset.sum_congr rfl fun j _ => ?_) (blk7 m c t n)
  rw [scratch_eq m c t.val t.isLt rr j, blk6 m c t j n, h7, rowSum_gRow (args m c) t.val t.isLt rr j, pooled_eq_range]
  rfl

/-- WHAT A WRITING POINT WRITES BACK is its block of the specification's array. -/
theorem flushed_eq (c : Dev nD) (t : Fin cfg0.N) (hf : (cfg0.win 8).flush t = true) :
    (dats m 0 c).flushed 8 t = ((cfg0.win 8).blk t).view.read (Elt Ideal) (G (args m c)) := by
  have h7 : t.val % 8 = 7 := (flush0_8 t).mp hf
  have h0 : ¬t.val % 8 = 0 := by omega
  obtain ⟨i0, i1⟩ := idx8 t
  rw [Value.flushed8 m c t]
  funext y
  have e : ((cfg0.win 8).blk t).view.emb y = ix2 (gRow t (y 0)) (y 1) := by
    funext a; apply Fin.ext
    match a with
    | ⟨0, _⟩ => show win0_8.index t 0 * 128 + 1 * (y 0).val = 128 * (t.val / 8) + (y 0).val; rw [i0]; omega
    | ⟨1, _⟩ => show win0_8.index t 1 * 32 + 1 * (y 1).val = (y 1).val; rw [i1]; omega
  show ((outsAt0 m c t.val t.isLt).1 : Vec Ideal S128x32 .f32) y = G (args m c) (((cfg0.win 8).blk t).view.emb y)
  refine Eq.trans ?_ (congrArg (G (args m c)) e).symm
  refine (congrArg ((outsAt0 m c t.val t.isLt).1 : Vec Ideal S128x32 .f32) (eq_ix2 y)).trans ?_
  exact result_at m c t h0 h7 (y 0) (y 1)

/-- An index of the result array is in point `t`'s block iff each coordinate is in the block's range on its axis. -/
theorem mem_blk (t : Fin cfg0.N) (i : S2048x32.Idx) :
    i ∈ ((cfg0.win 8).blk t).view.set ↔ ∀ a : Fin 2, win0_8.index t a * S128x32.size a ≤ (i a).val
      ∧ (i a).val < win0_8.index t a * S128x32.size a + S128x32.size a := by
  show i ∈ ((View.whole main_v1).slice (win0_8.rect t)).set ↔ _
  rw [View.set_slice_whole, Rect.mem_set_unit]
  exact Iff.rfl

/-- Every index of the result array is in the block of a writing point: row `r` in that of the last chunk of tile
    `r / 128`. -/
theorem cover (i : S2048x32.Idx) : ∃ t : Fin cfg0.N, (cfg0.win 8).flush t = true ∧ i ∈ ((cfg0.win 8).blk t).view.set := by
  have hi0 : (i 0).val < 2048 := (i 0).isLt
  have hi1 : (i 1).val < 32 := (i 1).isLt
  have hlt : 8 * ((i 0).val / 128) + 7 < cfg0.N := by rw [show cfg0.N = 128 from N_0]; omega
  obtain ⟨e0, e1⟩ := idx8 ⟨8 * ((i 0).val / 128) + 7, hlt⟩
  refine ⟨⟨8 * ((i 0).val / 128) + 7, hlt⟩, (flush0_8 _).mpr (by show (8 * ((i 0).val / 128) + 7) % 8 = 7; omega), ?_⟩
  rw [mem_blk]
  intro a
  match a with
  | ⟨0, _⟩ =>
    show win0_8.index ⟨8 * ((i 0).val / 128) + 7, hlt⟩ 0 * 128 ≤ (i 0).val
      ∧ (i 0).val < win0_8.index ⟨8 * ((i 0).val / 128) + 7, hlt⟩ 0 * 128 + 128
    rw [e0]
    show (8 * ((i 0).val / 128) + 7) / 8 * 128 ≤ (i 0).val ∧ (i 0).val < (8 * ((i 0).val / 128) + 7) / 8 * 128 + 128
    omega
  | ⟨1, _⟩ =>
    show win0_8.index ⟨8 * ((i 0).val / 128) + 7, hlt⟩ 1 * 32 ≤ (i 1).val
      ∧ (i 1).val < win0_8.index ⟨8 * ((i 0).val / 128) + 7, hlt⟩ 1 * 32 + 32
    rw [e1]
    omega

/-- THE RESULT ARRAY after the run is the specification's array of the argument arrays. -/
theorem final (c : Dev nD) : (dats m 0 c).arrAt 8 cfg0.N = G (args m c) :=
  (dats m 0 c).arrAt_eq_of_cover 8 (G (args m c)) (fun t hf => flushed_eq m c t hf) cover

/-- The kernel's run, read: every weakly fair execution ends with the result array at the specification's array
    and the arguments unchanged. -/
theorem run : θ_run defs (onTc (τ := τ) (main (F := Ideal))) ⟨m, fun _ => 0, ρ⟩ fun r => ∀ c : Dev nD,
      r.2.mem ((c : Thread nD τ).loc main_v1) = G (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefIsSpec.lean ====
/-
  The reference program, read stage by stage at explicit coordinates, is the specification.

  Its two contractions over the feature and hidden axes are the two dense layers; its maximum with a broadcast zero is
  the rectifier; its comparison of a broadcast iota with the broadcast sizes, fed to a select against a broadcast zero,
  keeps a position's value exactly where the position is below the set's size; its sum over the position axis starts
  from the zero word; its last contraction and broadcast bias are the last layer.  The zero word is the real zero, and
  no other literal occurs.
-/
import proofs.«138510_j56221121905193_1_alg».proof.Proof.Gen.ReferenceIdeal.Read
import proofs.«138510_j56221121905193_1_alg».proof.Proof.Spec
import proofs.«138510_j56221121905193_1_alg».proof.Proof.LibRowSum
import proofs.«138510_j56221121905193_1_alg».proof.Proof.LibMidSum
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.SetPool

variable (A : Args)

/-- The reference's rectified first layer at `(r, p, k)`. -/
theorem first_layer (r : Fin 2048) (p : Fin 512) (k : Fin 16) :
    val_main_v4 (F := Ideal) A.X A.W1 A.b1 (ix3 r p k) = hid1 A r p k := by
  rw [val_main_v4_apply, val_main_v3_apply, val_main_v0_apply, val_main_v2_apply, val_main_v1_apply,
    val_main_call0_v0_apply, val_main_call0_cst_apply]
  unfold hid1
  show max ((∑ f : Fin 64, A.X (lidx_main_v0 (ix3 r p k) f) * A.W1 (ridx_main_v0 (ix3 r p k) f))
      + A.b1 (idx_main_v1 (idx_main_v2 (ix3 r p k)))) (Ideal.ofBits .f32 0x00000000#32) = _
  rw [Ideal.ofBits_zero_f32]
  refine congrArg₂ max (congrArg₂ (fun a b : EReal => a + b) (Finset.sum_congr rfl fun f _ => ?_) ?_) rfl
  · exact congrArg₂ (fun a b : EReal => a * b) (congrArg A.X (idx3_ext _ r p f rfl rfl rfl)) (congrArg A.W1 (idx2_ext _ f k rfl rfl))
  · exact congrArg A.b1 (idx1_ext _ k rfl)

/-- The reference's second layer at `(r, p, j)`. -/
theorem second_layer (r : Fin 2048) (p : Fin 512) (j : Fin 12) :
    val_main_v8 (F := Ideal) A.X A.W1 A.b1 A.W2 A.b2 (ix3 r p j) = hid2 A r p j := by
  rw [val_main_v8_apply, val_main_v5_apply, val_main_v7_apply, val_main_v6_apply]
  unfold hid2
  show (∑ k : Fin 16, val_main_v4 (F := Ideal) A.X A.W1 A.b1 (lidx_main_v5 (ix3 r p j) k) * A.W2 (ridx_main_v5 (ix3 r p j) k))
      + A.b2 (idx_main_v6 (idx_main_v7 (ix3 r p j))) = _
  refine congrArg₂ (fun a b : EReal => a + b) (Finset.sum_congr rfl fun k _ => ?_) (congrArg A.b2 (idx1_ext _ j rfl))
  rw [show lidx_main_v5 (ix3 r p j) k = ix3 r p k from idx3_ext _ r p k rfl rfl rfl, first_layer]
  exact congrArg _ (congrArg A.W2 (idx2_ext _ k j rfl rfl))

/-- The reference's selected value at `(r, p, j)`: the second layer where the position is below the set's size, the zero
    word elsewhere. -/
theorem selected (r : Fin 2048) (p : Fin 512) (j : Fin 12) :
    val_main_v16 (F := Ideal) A.X A.sz A.W1 A.b1 A.W2 A.b2 (ix3 r p j) = kept A r p j := by
  rw [val_main_v16_apply, second_layer, val_main_call1_v1_apply, val_main_v15_apply, val_main_v14_apply, val_main_v12_apply,
    val_main_v10_apply, val_main_v9_apply, val_main_v13_apply, val_main_v11_apply, val_main_call1_v2_apply,
    val_main_call1_v0_apply, val_main_cst_apply]
  unfold kept live
  show (if IntOp.cmpi .slt (BitVec.ofNat 32 p.val)
        (A.sz (idx_main_v11 (idx_main_v13 (idx_main_v15 (idx_main_call1_v1 (ix3 r p j)))))) = 1#1 then hid2 A r p j
      else Ideal.ofBits .f32 0x00000000#32) = _
  rw [Ideal.ofBits_zero_f32, show idx_main_v11 (idx_main_v13 (idx_main_v15 (idx_main_call1_v1 (ix3 r p j)))) = ix1 r from
    idx1_ext _ r rfl]

/-- The reference's sum over a set's positions at `(r, j)`. -/
theorem pooled_ref (r : Fin 2048) (j : Fin 12) :
    val_main_v17 (F := Ideal) A.X A.sz A.W1 A.b1 A.W2 A.b2 (ix2 r j) = pooled A r j := by
  rw [val_main_v17_apply, val_main_cst_0_apply]
  show Ideal.ofBits .f32 0x00000000#32 + _ = _
  rw [Ideal.ofBits_zero_f32, zero_add]
  unfold pooled
  refine Finset.sum_congr rfl fun p _ => ?_
  rw [show idx_main_v17 (ix2 r j) p = ix3 r p j from idx3_ext _ r p j rfl rfl rfl, selected]

/-- THE REFERENCE'S RESULT is the specification's array. -/
theorem result_eq :
    val_main_v21 (F := Ideal) A.X A.sz A.W1 A.b1 A.W2 A.b2 A.W3 A.b3 = G A := by
  funext i
  obtain ⟨r, n, rfl⟩ : ∃ (r : Fin 2048) (n : Fin 32), i = ix2 r n := ⟨i 0, i 1, eq_ix2 i⟩
  rw [G_ix2, val_main_v21_apply, val_main_v18_apply, val_main_v20_apply, val_main_v19_apply]
  unfold out
  show (∑ j : Fin 12, val_main_v17 (F := Ideal) A.X A.sz A.W1 A.b1 A.W2 A.b2 (lidx_main_v18 (ix2 r n) j) * A.W3 (ridx_main_v18 (ix2 r n) j))
      + A.b3 (idx_main_v19 (idx_main_v20 (ix2 r n))) = _
  refine congrArg₂ (fun a b : EReal => a + b) (Finset.sum_congr rfl fun j _ => ?_) (congrArg A.b3 (idx1_ext _ n rfl))
  rw [show lidx_main_v18 (ix2 r n) j = ix2 r j from idx2_ext _ r j rfl rfl, pooled_ref]
  exact congrArg _ (congrArg A.W3 (idx2_ext _ j n rfl rfl))

end Cert.ReferenceIdeal.RefValue

end
-- ==== Proof.lean ====
/-
  A set-embedding kernel against its plain reference, on the extended reals.

  Both programs take a batch of 2048 sets of up to 512 elements with 64 features each, the sets' sizes, and the weights
  of three small dense layers.  Each element goes through the first layer with a rectifier and through the second
  layer; the elements beyond a set's own size are dropped and the rest are summed; the last layer is applied to the sum:

      out[r, n] = ∑ j, (∑ p < 512, [p < sizes r] · hid2 r p j) · W3[j, n] + b3[n].

  The kernel walks a 16 × 8 grid: 16 tiles of 128 sets, and for each tile 8 chunks of 64 elements.  It keeps the
  running sums of a tile between the chunks, clears them at the first chunk, multiplies each element's value by the
  1-or-0 factor of "this element is below the set's size", and applies the last layer after the last chunk.  The
  reference selects instead of multiplying and sums all 512 elements at once.

  Why they agree at every input, finite or not: on the extended reals `x · 1 = x` and `x · 0 = 0` for every `x`, the
  infinities included, so the multiplication by the factor is the selection; and regrouping a sum into consecutive
  stretches uses only that addition is associative and commutative there.  A change of float format is the
  identity, a matrix product into a zero accumulator is the plain sum of products, and the only literal in either
  program is the zero word, which is the real zero.  So the precondition is never opened.

  The modules: `Spec` states the function; `Pieces`, `PayloadAt`, `Blocks`, `Chain` and `Whole` show the kernel's result
  array ends at it (what one grid point leaves, its arithmetic entry by entry, the blocks against the whole arrays,
  the running sums by induction on the point, the blocks written back covering the array); `RefIsSpec` shows the
  reference's result is it.  The kernel idealization rewrote nothing, so that conjunct is trivial.
-/
import proofs.«138510_j56221121905193_1_alg».proof.Defs
import proofs.«138510_j56221121905193_1_alg».proof.Proof.Gen.Kernel
import proofs.«138510_j56221121905193_1_alg».proof.Proof.Gen.Kernel.Skeleton
import proofs.«138510_j56221121905193_1_alg».proof.Proof.Gen.Kernel.Launch
import proofs.«138510_j56221121905193_1_alg».proof.Proof.Gen.Kernel.Points
import proofs.«138510_j56221121905193_1_alg».proof.Proof.Gen.Kernel.Frame
import proofs.«138510_j56221121905193_1_alg».proof.Proof.Gen.KernelIdeal
import proofs.«138510_j56221121905193_1_alg».proof.Proof.Gen.KernelIdeal.Skeleton
import proofs.«138510_j56221121905193_1_alg».proof.Proof.Gen.KernelIdeal.Launch
import proofs.«138510_j56221121905193_1_alg».proof.Proof.Gen.KernelIdeal.Points
import proofs.«138510_j56221121905193_1_alg».proof.Proof.Gen.KernelIdeal.Frame
import proofs.«138510_j56221121905193_1_alg».proof.Proof.Gen.ReferenceIdeal
import proofs.«138510_j56221121905193_1_alg».proof.Proof.Gen.Pre_finite_inputs
import proofs.«138510_j56221121905193_1_alg».proof.Proof.Gen.KernelIdeal.Value
import proofs.«138510_j56221121905193_1_alg».proof.Proof.Gen.ReferenceIdeal.Run
import proofs.«138510_j56221121905193_1_alg».proof.Proof.Gen.ReferenceIdeal.Read
import proofs.«138510_j56221121905193_1_alg».proof.Proof.Spec
import proofs.«138510_j56221121905193_1_alg».proof.Proof.Whole
import proofs.«138510_j56221121905193_1_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specification's array of those arguments:
    the kernel's result array by the walk over the grid, the reference's by reading its stages. -/
theorem algebraic : Cert.algebraic_KernelIdeal_ReferenceIdeal := by
  intro m ρ m' ρ' _ hagree
  refine ⟨fun c => Cert.SetPool.G (Cert.KernelIdeal.Chain.args m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq, a0, a1, a2, a3, a4, a5, a6, a7]
  exact Cert.ReferenceIdeal.RefValue.result_eq (Cert.KernelIdeal.Chain.args m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
